-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S2048x2048 : Shape := ⟨2, ![2048, 2048]⟩
abbrev S1x2048 : Shape := ⟨2, ![1, 2048]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S32768x1024 .f32) (main_arg1 : FVec F S32768x1024 .f32) (main_arg2 : FVec F S2048x2048 .f32) (main_arg3 : FVec F S1x2048 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Kernel.lean ====
abbrev S32768x1024 : Shape := ⟨2, ![32768, 1024]⟩
abbrev S2048x2048 : Shape := ⟨2, ![2048, 2048]⟩
abbrev S1x2048 : Shape := ⟨2, ![1, 2048]⟩
abbrev S2048x1024 : Shape := ⟨2, ![2048, 1024]⟩
abbrev S1024x2048 : Shape := ⟨2, ![1024, 2048]⟩
abbrev S32768 : Shape := ⟨1, ![32768]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩
abbrev S512x512 : Shape := ⟨2, ![512, 512]⟩
abbrev S1x32768 : Shape := ⟨2, ![1, 32768]⟩
abbrev S_ : Shape := ⟨0, ![]⟩
abbrev S1 : Shape := ⟨1, ![1]⟩
abbrev S1x1 : Shape := ⟨2, ![1, 1]⟩

abbrev nBuf : Space → Nat
  | .hbm => 26
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x2048, .f32⟩
  | .hbm, ⟨3, _⟩ => ⟨S1x2048, .f32⟩
  | .hbm, ⟨4, _⟩ => ⟨S2048x1024, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x2048, .f32⟩
  | .hbm, ⟨9, _⟩ => ⟨S1024x2048, .bf16⟩
  | .hbm, ⟨10, _⟩ => ⟨S32768, .f32⟩
  | .hbm, ⟨11, _⟩ => ⟨S1x32768, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1x1, .f32⟩
  | .hbm, ⟨18, _⟩ => ⟨S1x32768, .f32⟩
  | .hbm, ⟨19, _⟩ => ⟨S1x32768, .f32⟩
  | .hbm, ⟨20, _⟩ => ⟨S1x32768, .f32⟩
  | .hbm, ⟨21, _⟩ => ⟨S_, .f32⟩
  | .hbm, ⟨22, _⟩ => ⟨S1, .f32⟩
  | .hbm, ⟨23, _⟩ => ⟨S1x1, .f32⟩
  | .hbm, ⟨24, _⟩ => ⟨S1x32768, .f32⟩
  | .hbm, ⟨25, _⟩ => ⟨S1x32768, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S512, .f32⟩
  | .local _ .vmem, ⟨8, _⟩ => ⟨S512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2048x2048_S2048x1024_0_0 : S2048x2048.Slices ![0, 0] S2048x1024
  slices_S2048x2048_S2048x1024_0_1024 : S2048x2048.Slices ![0, 1024] S2048x1024
  transposes_S2048x1024_S1024x2048_1_0 : S2048x1024.Transposes [1, 0] S1024x2048
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x2048_S1024x512_0_0 : ∀ a, (![0, 0] : Fin 2 → Nat) a + S1024x512.size a ≤ S1024x2048.size a
  h_S1024x512 : 0 < S1024x512.numel
  shapeCasts_S1024x512_S1024x512 : S1024x512.ShapeCasts S1024x512
  inb_S1x2048_S1x512_0_0 : ∀ a, (![0, 0] : Fin 2 → Nat) a + S1x512.size a ≤ S1x2048.size a
  h_S1x512 : 0 < S1x512.numel
  broadcasts_S1x512_S512x512 : S1x512.Broadcasts S512x512
  reduces_S512x512_S512 : S512x512.Reduces [1] S512
  shapeCasts_S512_S512x1 : S512.ShapeCasts S512x1
  inb_S1024x2048_S1024x512_0_512 : ∀ a, (![0, 512] : Fin 2 → Nat) a + S1024x512.size a ≤ S1024x2048.size a
  inb_S1x2048_S1x512_0_512 : ∀ a, (![0, 512] : Fin 2 → Nat) a + S1x512.size a ≤ S1x2048.size a
  inb_S1024x2048_S1024x512_0_1024 : ∀ a, (![0, 1024] : Fin 2 → Nat) a + S1024x512.size a ≤ S1024x2048.size a
  inb_S1x2048_S1x512_0_1024 : ∀ a, (![0, 1024] : Fin 2 → Nat) a + S1x512.size a ≤ S1x2048.size a
  inb_S1024x2048_S1024x512_0_1536 : ∀ a, (![0, 1536] : Fin 2 → Nat) a + S1024x512.size a ≤ S1024x2048.size a
  inb_S1x2048_S1x512_0_1536 : ∀ a, (![0, 1536] : Fin 2 → Nat) a + S1x512.size a ≤ S1x2048.size a
  shapeCasts_S512x1_S512 : S512x1.ShapeCasts S512
  inb_S512_S512_0 : ∀ a, (![0] : Fin 1 → Nat) a + S512.size a ≤ S512.size a
  h_S512 : 0 < S512.numel
  shapeCasts_S32768_S1x32768 : S32768.ShapeCasts S1x32768
  reducesTo_S1x32768_S1_d1 : S1x32768.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32768_0_1 : S1x1.BroadcastsInDim S1x32768 (![0, 1] : Fin 2 → Fin S1x32768.rank)
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S32768.size a
  hwx0_5 : ∀ i : grid0.Coords, EltTy.bits .f32 = 32 ∨ (Rect.block (s := S32768) S512.size (cc0_transform_5 i) (hinb0_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S2048x2048 : Shape := ⟨2, ![2048, 2048]⟩
abbrev S1x2048 : Shape := ⟨2, ![1, 2048]⟩
abbrev S32768x2048 : Shape := ⟨2, ![32768, 2048]⟩
abbrev S2048x1 : Shape := ⟨2, ![2048, 1]⟩
abbrev S32768x1 : Shape := ⟨2, ![32768, 1]⟩
abbrev S1x32768 : Shape := ⟨2, ![1, 32768]⟩
abbrev S_ : Shape := ⟨0, ![]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x2048, .f32⟩
  | .hbm, ⟨3, _⟩ => ⟨S1x2048, .f32⟩
  | .hbm, ⟨4, _⟩ => ⟨S32768x2048, .f32⟩
  | .hbm, ⟨5, _⟩ => ⟨S2048x2048, .f32⟩
  | .hbm, ⟨6, _⟩ => ⟨S32768x2048, .f32⟩
  | .hbm, ⟨7, _⟩ => ⟨S32768x2048, .f32⟩
  | .hbm, ⟨8, _⟩ => ⟨S2048x1, .f32⟩
  | .hbm, ⟨9, _⟩ => ⟨S32768x1, .f32⟩
  | .hbm, ⟨10, _⟩ => ⟨S1x32768, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S1x1, .f32⟩
  | .hbm, ⟨17, _⟩ => ⟨S1x32768, .f32⟩
  | .hbm, ⟨18, _⟩ => ⟨S1x32768, .f32⟩
  | .hbm, ⟨19, _⟩ => ⟨S1x32768, .f32⟩
  | .hbm, ⟨20, _⟩ => ⟨S_, .f32⟩
  | .hbm, ⟨21, _⟩ => ⟨S1, .f32⟩
  | .hbm, ⟨22, _⟩ => ⟨S1x1, .f32⟩
  | .hbm, ⟨23, _⟩ => ⟨S1x32768, .f32⟩
  | .hbm, ⟨24, _⟩ => ⟨S1x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  concatenates_S32768x1024_S32768x1024_S32768x2048_d1 : Shape.Concatenates [S32768x1024, S32768x1024] S32768x2048 1
  transposes_S2048x2048_S2048x2048_1_0 : S2048x2048.Transposes [1, 0] S2048x2048
  transposes_S1x2048_S2048x1_1_0 : S1x2048.Transposes [1, 0] S2048x1
  transposes_S32768x1_S1x32768_1_0 : S32768x1.Transposes [1, 0] S1x32768
  reducesTo_S1x32768_S1_d1 : S1x32768.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32768_0_1 : S1x1.BroadcastsInDim S1x32768 (![0, 1] : Fin 2 → Fin S1x32768.rank)
  dot_S32768x2048_S2048x2048_S32768x2048_1_0_0_1_n_n_wf : DotDims.WF S32768x2048 S2048x2048 S32768x2048 [1] [0] [0] [1] [] []
  dot_S32768x2048_S2048x1_S32768x1_1_0_0_1_n_n_wf : DotDims.WF S32768x2048 S2048x1 S32768x1 [1] [0] [0] [1] [] []

variable [Facts₀]

def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x2048_S2048x1_S32768x1_1_0_0_1_n_n : DotDims S32768x2048 S2048x1 S32768x1 where
  lhsContracting := [1]
  rhsContracting := [0]
  lhsNonContracting := [0]
  rhsNonContracting := [1]
  lhsBatch := []
  rhsBatch := []
  wf := dot_S32768x2048_S2048x1_S32768x1_1_0_0_1_n_n_wf

class Facts : Prop extends Facts₀ where

variable [Facts]
-- ==== Proof.ScoreSpec.lean ====
/-
  The score that additive attention gives one row before the softmax, as ONE function of the four argument arrays,
  and the two groupings of its sums.

  For row `r` and feature `j` the pre-activation is the row of `s` against the first 1024 columns of row `j` of `W`
  plus the row of `h` against its last 1024 columns: the row of the concatenation of `s` and `h` against the whole of
  row `j`. Feature `j` contributes the hyperbolic tangent of that, times `v[0, j]`, and the score of the row is the
  sum of the 2048 contributions.

  A sum over 2048 positions is the sum over its first and its last 1024 positions, and it is also the sum of its four
  consecutive quarters of 512 positions added one after the other onto zero. Both are regroupings of a finite sum in a
  commutative monoid, which the extended reals are under addition: nothing here asks an entry to be finite.
-/
import Idealize.ShloMosaic.PureOps.Ideal
import Idealize.ShloMosaic.Lib.ValueIdx
import Mathlib.Algebra.BigOperators.Fin

noncomputable section

namespace Cert.AttnScore

open Idealize.ShloMosaic Idealize.ShloMosaic.ValueIdx

/-- Position `o + q` on an axis of length `n`: position `q` of a piece of width `w` that starts at `o`. -/
abbrev shifted {w : ℕ} (n o : ℕ) (hw : o + w ≤ n) (q : Fin w) : Fin n := ⟨o + q.val, by have := q.isLt; omega⟩

section Score

variable (s h : (⟨2, ![32768, 1024]⟩ : Shape).Idx → EReal) (W : (⟨2, ![2048, 2048]⟩ : Shape).Idx → EReal)
  (v : (⟨2, ![1, 2048]⟩ : Shape).Idx → EReal)

/-- The pre-activation of feature `j` in row `r`. -/
def preact (r : Fin 32768) (j : Fin 2048) : EReal :=
  (∑ k : Fin 1024, s (ix2 r k) * W (ix2 j (shifted 2048 0 (by omega) k)))
    + ∑ k : Fin 1024, h (ix2 r k) * W (ix2 j (shifted 2048 1024 (by omega) k))

/-- What feature `j` adds to the score of row `r`. -/
def feature (r : Fin 32768) (j : Fin 2048) : EReal :=
  Ideal.tanh (preact s h W r j) * v (ix2 (0 : Fin 1) j)

/-- The score of row `r`. -/
def rowScore (r : Fin 32768) : EReal := ∑ j : Fin 2048, feature s h W v r j

/-- The scores of all rows, as a vector of 32768 entries. -/
def scoreVec (i : (⟨1, ![32768]⟩ : Shape).Idx) : EReal := rowScore s h W v ⟨(i 0).val, (i 0).isLt⟩

/-- The same scores laid out as the one row of a 1 × 32768 array. -/
def scoreRow (i : (⟨2, ![1, 32768]⟩ : Shape).Idx) : EReal := rowScore s h W v ⟨(i 1).val, (i 1).isLt⟩

end Score

/-- A sum over 2048 positions is the sum over the first 1024 plus the sum over the last 1024. -/
theorem sum_halves {M : Type*} [AddCommMonoid M] (g : Fin 2048 → M) :
    ∑ k : Fin 2048, g k
      = (∑ k : Fin 1024, g (shifted 2048 0 (by omega) k)) + ∑ k : Fin 1024, g (shifted 2048 1024 (by omega) k) := by
  refine (Fin.sum_univ_add (a := 1024) (b := 1024) g).trans ?_
  refine congrArg₂ (· + ·) (Finset.sum_congr rfl fun k _ => congrArg g (Fin.ext ?_))
    (Finset.sum_congr rfl fun k _ => congrArg g (Fin.ext ?_))
  · show k.val = 0 + k.val
    omega
  · rfl

/-- A sum over 1024 positions is the sum over the first 512 plus the sum over the last 512. -/
theorem sum_halves_1024 {M : Type*} [AddCommMonoid M] (g : Fin 1024 → M) :
    ∑ k : Fin 1024, g k
      = (∑ k : Fin 512, g (shifted 1024 0 (by omega) k)) + ∑ k : Fin 512, g (shifted 1024 512 (by omega) k) := by
  refine (Fin.sum_univ_add (a := 512) (b := 512) g).trans ?_
  refine congrArg₂ (· + ·) (Finset.sum_congr rfl fun k _ => congrArg g (Fin.ext ?_))
    (Finset.sum_congr rfl fun k _ => congrArg g (Fin.ext ?_))
  · show k.val = 0 + k.val
    omega
  · rfl

/-- The four consecutive quarters of a sum over 2048 positions, added one after the other onto zero, are the sum. -/
theorem sum_quarters {M : Type*} [AddCommMonoid M] (g : Fin 2048 → M) :
    (((0 + ∑ q : Fin 512, g (shifted 2048 0 (by omega) q)) + ∑ q : Fin 512, g (shifted 2048 512 (by omega) q))
        + ∑ q : Fin 512, g (shifted 2048 1024 (by omega) q)) + ∑ q : Fin 512, g (shifted 2048 1536 (by omega) q)
      = ∑ j : Fin 2048, g j := by
  rw [zero_add, sum_halves g, sum_halves_1024 fun k => g (shifted 2048 0 (by omega) k),
    sum_halves_1024 fun k => g (shifted 2048 1024 (by omega) k), add_assoc ((∑ q : Fin 512, _) + _)]
  refine congrArg₂ (· + ·) (congrArg₂ (· + ·) (Finset.sum_congr rfl fun q _ => congrArg g (Fin.ext ?_))
      (Finset.sum_congr rfl fun q _ => congrArg g (Fin.ext ?_)))
    (congrArg₂ (· + ·) (Finset.sum_congr rfl fun q _ => congrArg g (Fin.ext ?_))
      (Finset.sum_congr rfl fun q _ => congrArg g (Fin.ext ?_)))
  · show 0 + q.val = 0 + (0 + q.val); omega
  · show 512 + q.val = 0 + (512 + q.val); omega
  · show 1024 + q.val = 1024 + (0 + q.val); omega
  · show 1536 + q.val = 1024 + (512 + q.val); omega

end Cert.AttnScore

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  What the kernel body leaves in its output block, row by row.

  The body holds a block of 512 rows of `s` and of `h`, the two 1024 × 2048 weight halves and the row `v`. It works
  through the 2048 features in four chunks of 512 columns: for a chunk it multiplies the `s` rows by the chunk's
  columns of the first weight half and the `h` rows by the chunk's columns of the second, adds the two products,
  applies the hyperbolic tangent, multiplies each column by the chunk's entry of `v` and sums along the columns. The
  four column sums are added one after the other onto zero. So row `p` of the block ends at the sum over all 2048
  features `j` of `tanh (Σₖ s[p, k] · Ws[k, j] + Σₖ h[p, k] · Wh[k, j]) · v[0, j]`: the four quarters of a sum over 2048
  positions added in order onto zero are the whole sum.
-/
import proofs.«167854_j71098888618436_2_alg».proof.Proof.Gen.KernelIdeal.Frame
import proofs.«167854_j71098888618436_2_alg».proof.Proof.ScoreSpec
import proofs.«167854_j71098888618436_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx Cert.AttnScore

/-- The body's matrix product: 512 × 1024 by 1024 × 512. -/
abbrev MM : DotDims S512x1024 S1024x512 S512x512 := dot_S512x1024_S1024x512_S512x512_1_0_0_1_n_n

theorem lhs_row (i : S512x512.Idx) (q : MM.contr.Idx) : (MM.lhsIdx i q 0).val = (i 0).val := by
  unfold DotDims.lhsIdx
  rw [dif_neg (show ¬(0 : Fin S512x1024.rank) ∈ MM.lhsBatch by decide),
    dif_pos (show (0 : Fin S512x1024.rank) ∈ MM.lhsNonContracting by decide)]
  rfl

theorem rhs_col (i : S512x512.Idx) (q : MM.contr.Idx) : (MM.rhsIdx i q 1).val = (i 1).val := by
  unfold DotDims.rhsIdx
  rw [dif_neg (show ¬(1 : Fin S1024x512.rank) ∈ MM.rhsBatch by decide),
    dif_pos (show (1 : Fin S1024x512.rank) ∈ MM.rhsNonContracting by decide)]
  rfl

/-- The product into a zero accumulator, at `(p, q)`: row `p` of the left factor against column `q` of the right. -/
theorem matmul_at (a : FVec Ideal S512x1024 .bf16) (b : FVec Ideal S1024x512 .bf16) (p q : Fin 512) :
    matmul MM none a b (constant (F := Ideal) S512x512 .f32 0x00000000#32) (ix2 p q)
      = ∑ k : Fin 1024, a (ix2 p k) * b (ix2 k q) := by
  simp only [matmul]
  rw [Ideal.matmul_constant_zero_apply, ← Equiv.sum_comp (contrEquiv1 MM 1024 rfl rfl).symm]
  refine Finset.sum_congr rfl fun k _ => ?_
  have hk := contrEquiv1_symm_val MM 1024 rfl rfl k
  have el : MM.lhsIdx (ix2 p q) ((contrEquiv1 MM 1024 rfl rfl).symm k) = ix2 p k := funext fun c => Fin.ext (by
    match c with
    | ⟨0, _⟩ => exact lhs_row _ _
    | ⟨1, _⟩ => exact (MM.lhsIdx_val_of_single rfl _ _).trans hk)
  have er : MM.rhsIdx (ix2 p q) ((contrEquiv1 MM 1024 rfl rfl).symm k) = ix2 k q := funext fun c => Fin.ext (by
    match c with
    | ⟨0, _⟩ => exact (MM.rhsIdx_val_of_single rfl _ _).trans hk
    | ⟨1, _⟩ => exact rhs_col _ _)
  rw [el, er]

/-- One chunk of 512 features before the sum along the columns: entry `(p, q)` is what feature `q` of the chunk
    adds to row `p`. -/
def chunkTerms (xs xh : FVec Ideal S512x1024 .bf16) (ws wh : FVec Ideal S1024x512 .bf16) (vv : FVec Ideal S1x512 .f32) :
    FVec Ideal S512x512 .f32 :=
  mulf (tanh (addf
      (matmul MM none xs (shapeCast S1024x512 ws shapeCasts_S1024x512_S1024x512) (constant (F := Ideal) S512x512 .f32 0x00000000#32))
      (matmul MM none xh (shapeCast S1024x512 wh shapeCasts_S1024x512_S1024x512) (constant (F := Ideal) S512x512 .f32 0x00000000#32))))
    (broadcastTo S512x512 vv broadcasts_S1x512_S512x512)

theorem chunkTerms_at (xs xh : FVec Ideal S512x1024 .bf16) (ws wh : FVec Ideal S1024x512 .bf16) (vv : FVec Ideal S1x512 .f32)
    (p q : Fin 512) :
    chunkTerms xs xh ws wh vv (ix2 p q)
      = Ideal.tanh ((∑ k : Fin 1024, xs (ix2 p k) * ws (ix2 k q)) + ∑ k : Fin 1024, xh (ix2 p k) * wh (ix2 k q))
          * vv (ix2 (0 : Fin 1) q) := by
  show Ideal.tanh (matmul MM none xs _ _ (ix2 p q) + matmul MM none xh _ _ (ix2 p q))
      * broadcastTo S512x512 vv broadcasts_S1x512_S512x512 (ix2 p q) = _
  rw [matmul_at, matmul_at, broadcastTo_1b_ab_apply, shapeCast_self, shapeCast_self]

/-- What one chunk of 512 features adds to each of the block's rows: the chunk's terms summed along the columns. -/
def chunk (xs xh : FVec Ideal S512x1024 .bf16) (ws wh : FVec Ideal S1024x512 .bf16) (vv : FVec Ideal S1x512 .f32) :
    FVec Ideal S512 .f32 :=
  multiReduction .add [1] S512 (chunkTerms xs xh ws wh vv) 0x00000000#32 reduces_S512x512_S512 (.inl rfl) rfl

/-- The index of the 512 × 512 terms over row `p` with column `q` put back. -/
theorem lift_eq (p q : Fin 512) : reduces_S512x512_S512.lift (ix1 p) q = ix2 p q :=
  funext fun c => Fin.ext (by match c with | ⟨0, _⟩ => rfl | ⟨1, _⟩ => rfl)

/-- Row `p` of a chunk: the sum over the chunk's 512 features. -/
theorem chunk_at (xs xh : FVec Ideal S512x1024 .bf16) (ws wh : FVec Ideal S1024x512 .bf16) (vv : FVec Ideal S1x512 .f32)
    (p : Fin 512) :
    chunk xs xh ws wh vv (ix1 p)
      = ∑ q : Fin 512, Ideal.tanh ((∑ k : Fin 1024, xs (ix2 p k) * ws (ix2 k q)) + ∑ k : Fin 1024, xh (ix2 p k) * wh (ix2 k q))
          * vv (ix2 (0 : Fin 1) q) := by
  unfold chunk
  refine (Ideal.multiReduction_add_single _ 0x00000000#32 reduces_S512x512_S512 (.inl rfl) rfl (ix1 p)).trans ?_
  exact Finset.sum_congr rfl fun q _ =>
    (congrArg (chunkTerms xs xh ws wh vv) (lift_eq p q)).trans (chunkTerms_at xs xh ws wh vv p q)

/-! ## The body's stored value in those terms -/

/-- The running column after the first two chunks: zero, plus the first chunk, plus the second. -/
theorem first_two_chunks (v0 v2 : Vec Ideal S512x1024 .f32) (v5 v7 : Vec Ideal S1024x512 .bf16) (v9 : Vec Ideal S1x512 .f32)
    (v19 v21 : Vec Ideal S1024x512 .bf16) (v23 : Vec Ideal S1x512 .f32) :
    k0_pay4 v0 v2 v5 v7 v9 v19 v21 v23
      = addf (addf (broadcast S512x1 (Scalar.ofBits (F := Ideal) .f32 0x00000000#32))
            (shapeCast S512x1 (chunk (k0_pay2 v0) (k0_pay3 v2) v5 v7 v9) shapeCasts_S512_S512x1))
          (shapeCast S512x1 (chunk (k0_pay2 v0) (k0_pay3 v2) v19 v21 v23) shapeCasts_S512_S512x1) := rfl

/-- The stored vector: the running column plus the third chunk plus the fourth, recast from a column to a vector. -/
theorem stored_vector (v1 v3 : FVec Ideal S512x1024 .bf16) (v32 : FVec Ideal S512x1 .f32) (v33 v35 : Vec Ideal S1024x512 .bf16)
    (v37 : Vec Ideal S1x512 .f32) (v47 v49 : Vec Ideal S1024x512 .bf16) (v51 : Vec Ideal S1x512 .f32) :
    k0_pay1 v1 v3 v32 v33 v35 v37 v47 v49 v51
      = shapeCast S512 (addf (addf v32 (shapeCast S512x1 (chunk v1 v3 v33 v35 v37) shapeCasts_S512_S512x1))
          (shapeCast S512x1 (chunk v1 v3 v47 v49 v51) shapeCasts_S512_S512x1)) shapeCasts_S512x1_S512 := rfl

/-- A 512 × 1 column recast as a vector of 512 reads, at `p`, the column's row `p`. -/
theorem column_as_vector (x : FVec Ideal S512x1 .f32) (p : Fin 512) :
    shapeCast S512 x shapeCasts_S512x1_S512 (ix1 p) = x (ix2 p (0 : Fin 1)) :=
  shapeCast_apply x shapeCasts_S512x1_S512 (ix1 p) (ix2 p (0 : Fin 1)) (by
    rw [Shape.rowMajor_val_two, Shape.rowMajor_val_one]
    show p.val * 1 + 0 = p.val
    omega)

/-- Columns `o … o + 511` of a 1024 × 2048 block, read at `(k, q)`. -/
theorem weight_cols (x : Vec Ideal S1024x2048 .bf16) (o : ℕ) (inb : ∀ a, (![0, o] : Fin 2 → Nat) a + S1024x512.size a ≤ S1024x2048.size a)
    (ho : o + 512 ≤ 2048) (k : Fin 1024) (q : Fin 512) :
    View.ld (Val := Elt Ideal) (e' := .bf16) x (Rect.unit (s := S1024x2048) ![0, o] S1024x512.size inb) (ix2 k q)
      = x (ix2 k (shifted 2048 o ho q)) := by
  show x _ = x _
  refine congrArg x (funext fun a => Fin.ext ?_)
  match a with
  | ⟨0, _⟩ =>
    show 0 + 1 * k.val = k.val
    omega
  | ⟨1, _⟩ =>
    show o + 1 * q.val = o + q.val
    omega

/-- Entries `o … o + 511` of the 1 × 2048 row, read at `(0, q)`. -/
theorem row_cols (x : Vec Ideal S1x2048 .f32) (o : ℕ) (inb : ∀ a, (![0, o] : Fin 2 → Nat) a + S1x512.size a ≤ S1x2048.size a)
    (ho : o + 512 ≤ 2048) (q : Fin 512) :
    View.ld (Val := Elt Ideal) (e' := .f32) x (Rect.unit (s := S1x2048) ![0, o] S1x512.size inb) (ix2 (0 : Fin 1) q)
      = x (ix2 (0 : Fin 1) (shifted 2048 o ho q)) := by
  show x _ = x _
  refine congrArg x (funext fun a => Fin.ext ?_)
  match a with
  | ⟨0, _⟩ => rfl
  | ⟨1, _⟩ =>
    show o + 1 * q.val = o + q.val
    omega

theorem hz1 : (![0] : Fin 1 → Nat) = fun _ => 0 := funext fun a => by fin_cases a; rfl
theorem hz2 : (![0, 0] : Fin 2 → Nat) = fun _ => 0 := funext fun a => by fin_cases a <;> rfl

/-- What feature `j` adds to row `p` of the block, from the blocks the body holds. -/
def blockFeature (x0 x1 : FVec Ideal S512x1024 .f32) (x2 x3 : FVec Ideal S1024x2048 .bf16) (x4 : FVec Ideal S1x2048 .f32)
    (p : Fin 512) (j : Fin 2048) : EReal :=
  Ideal.tanh ((∑ k : Fin 1024, x0 (ix2 p k) * x2 (ix2 k j)) + ∑ k : Fin 1024, x1 (ix2 p k) * x3 (ix2 k j)) * x4 (ix2 (0 : Fin 1) j)

/-- Row `p` of one chunk read off the whole blocks: the chunk starting at column `o` sums the features `o … o + 511`. -/
theorem chunk_of_blocks (x0 x1 : Vec Ideal S512x1024 .f32) (x2 x3 : Vec Ideal S1024x2048 .bf16) (x4 : Vec Ideal S1x2048 .f32)
    (o : ℕ) (inbW : ∀ a, (![0, o] : Fin 2 → Nat) a + S1024x512.size a ≤ S1024x2048.size a)
    (inbV : ∀ a, (![0, o] : Fin 2 → Nat) a + S1x512.size a ≤ S1x2048.size a) (ho : o + 512 ≤ 2048) (p : Fin 512) :
    chunk (k0_pay2 x0) (k0_pay3 x1) (View.ld (Val := Elt Ideal) (e' := .bf16) x2 (Rect.unit (s := S1024x2048) ![0, o] S1024x512.size inbW))
        (View.ld (Val := Elt Ideal) (e' := .bf16) x3 (Rect.unit (s := S1024x2048) ![0, o] S1024x512.size inbW))
        (View.ld (Val := Elt Ideal) (e' := .f32) x4 (Rect.unit (s := S1x2048) ![0, o] S1x512.size inbV)) (ix1 p)
      = ∑ q : Fin 512, blockFeature x0 x1 x2 x3 x4 p (shifted 2048 o ho q) := by
  rw [chunk_at]
  refine Finset.sum_congr rfl fun q _ => ?_
  unfold blockFeature
  rw [row_cols x4 o inbV ho q]
  refine congrArg (fun z => Ideal.tanh z * _) ?_
  refine congrArg₂ (· + ·) (Finset.sum_congr rfl fun k _ => ?_) (Finset.sum_congr rfl fun k _ => ?_)
  · rw [weight_cols x2 o inbW ho k q]; rfl
  · rw [weight_cols x3 o inbW ho k q]; rfl

/-- THE BODY'S RESULT at row `p` of the block: the sum over all 2048 features. -/
theorem body_at (x0 x1 : Vec Ideal S512x1024 .f32) (x2 x3 : Vec Ideal S1024x2048 .bf16) (x4 : Vec Ideal S1x2048 .f32)
    (y : S512.Idx) (p : Fin 512) (hp : (y 0).val = p.val) :
    out0_5 (F := Ideal) x0 x1 x2 x3 x4 y = ∑ j : Fin 2048, blockFeature x0 x1 x2 x3 x4 p j := by
  obtain rfl : y = ix1 p := (eq_ix1 y).trans (congrArg ix1 (Fin.ext hp))
  unfold out0_5
  rw [View.canon_unit_zero hz1]
  simp only [View.ld_unit_zero (S := S512x1024) hz2]
  rw [stored_vector, column_as_vector, first_two_chunks]
  show (((Ideal.ofBits .f32 0x00000000#32 + shapeCast S512x1 _ shapeCasts_S512_S512x1 (ix2 p (0 : Fin 1)))
        + shapeCast S512x1 _ shapeCasts_S512_S512x1 (ix2 p (0 : Fin 1)))
        + shapeCast S512x1 _ shapeCasts_S512_S512x1 (ix2 p (0 : Fin 1)))
        + shapeCast S512x1 _ shapeCasts_S512_S512x1 (ix2 p (0 : Fin 1)) = _
  rw [shapeCast_a_a1_apply, shapeCast_a_a1_apply, shapeCast_a_a1_apply, shapeCast_a_a1_apply, Ideal.ofBits_zero_f32,
    chunk_of_blocks x0 x1 x2 x3 x4 0 _ _ (by omega) p, chunk_of_blocks x0 x1 x2 x3 x4 512 _ _ (by omega) p,
    chunk_of_blocks x0 x1 x2 x3 x4 1024 _ _ (by omega) p, chunk_of_blocks x0 x1 x2 x3 x4 1536 _ _ (by omega) p]
  exact sum_quarters fun j => blockFeature x0 x1 x2 x3 x4 p j

end Cert.KernelIdeal.Body

end
-- ==== Proof.KernelWeights.lean ====
/-
  The two weight arrays the kernel's region is launched on.

  Before the region the program cuts `W` into its first and its last 1024 columns, transposes each 2048 × 1024 half
  into 1024 × 2048, and changes the format (the identity on the extended reals). So the first array at `(k, j)` is
  `W[j, k]` and the second is `W[j, 1024 + k]`.
-/
import proofs.«167854_j71098888618436_2_alg».proof.Proof.Gen.KernelIdeal.Frame
import proofs.«167854_j71098888618436_2_alg».proof.Proof.ScoreSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Weights

open Cert.KernelIdeal Cert.KernelIdeal.Gen
open Idealize.ShloMosaic Idealize.ShloMosaic.TcCoe Idealize.SL.Sem Idealize.ShloMosaic.StableHlo
open Idealize.ShloMosaic.ValueIdx Cert.AttnScore

/-- The columns `o … o + 1023` of `W`, transposed. -/
def halfT (o : ℕ) (hs : S2048x2048.Slices ![0, o] S2048x1024) (W : FVec Ideal S2048x2048 .f32) : FVec Ideal S1024x2048 .bf16 :=
  truncf .bf16 (transpose S1024x2048 [1, 0] (extractStridedSlice S2048x1024 ![0, o] W hs) transposes_S2048x1024_S1024x2048_1_0)
    bitsLt_bf16_f32

/-- Entry `(k, j)` of a transposed half is `W[j, o + k]`. -/
theorem halfT_at (o : ℕ) (hs : S2048x2048.Slices ![0, o] S2048x1024) (ho : o + 1024 ≤ 2048) (W : FVec Ideal S2048x2048 .f32)
    (k : Fin 1024) (j : Fin 2048) : halfT o hs W (ix2 k j) = W (ix2 j (shifted 2048 o ho k)) := by
  unfold halfT
  rw [truncf_apply, transpose_ix2_apply, slice2_axis1_eq]

variable (m : (ℓ : Loc nD τ sig) → Buf (Elt Ideal) ℓ)

/-- The array window 2 stages is the first half of `W`, transposed. -/
theorem first_half (c : Dev nD) :
    (V m c main_v3 : S1024x2048.Idx → Elt Ideal .bf16)
      = halfT 0 slices_S2048x2048_S2048x1024_0_0 (m ((c : Thread nD τ).loc main_arg2)) := by
  show StableHlo.after hostOps0 (fun b => m (c, b)) (Proc.devRef .tc main_v3) = _
  after_results
  rfl

/-- The array window 3 stages is the second half of `W`, transposed. -/
theorem second_half (c : Dev nD) :
    (V m c main_v5 : S1024x2048.Idx → Elt Ideal .bf16)
      = halfT 1024 slices_S2048x2048_S2048x1024_0_1024 (m ((c : Thread nD τ).loc main_arg2)) := by
  show StableHlo.after hostOps0 (fun b => m (c, b)) (Proc.devRef .tc main_v5) = _
  after_results
  rfl

end Cert.KernelIdeal.Weights

end
-- ==== Proof.KernelBlocks.lean ====
/-
  From the blocks to the array: after the region the kernel's output vector holds the score of every row.

  The grid has 64 points; point `t` is handed rows `512 t … 512 t + 511` of `s` and of `h`, the whole of both weight
  arrays and of `v`, and writes back entries `512 t … 512 t + 511` of the output. Row `p` of what it writes is the sum
  over the features of the block's terms, and those are the terms of the score of row `512 t + p` of the whole arrays:
  the weight arrays at `(k, j)` are `W[j, k]` and `W[j, 1024 + k]`. Every entry of the output lies in the block of
  the point `⌊i / 512⌋`, so the 64 blocks fill it.
-/
import proofs.«167854_j71098888618436_2_alg».proof.Proof.KernelBody
import proofs.«167854_j71098888618436_2_alg».proof.Proof.KernelWeights
import Idealize.ShloMosaic.Lib.Pipeline.Value

noncomputable section

namespace Cert.KernelIdeal.Blocks

open Cert.KernelIdeal Cert.KernelIdeal.Gen Cert.KernelIdeal.Body Cert.KernelIdeal.Weights
open Idealize.ShloMosaic Idealize.ShloMosaic.TcCoe Idealize.SL.Sem Idealize.ShloMosaic.ValueIdx Cert.AttnScore
open Idealize.ShloMosaic.Pipeline (Dat)

variable (m : (ℓ : Loc nD τ sig) → Buf (Elt Ideal) ℓ)

/-- The block each window is at, at every point of the grid: the two row windows and the output at block `t`, the
    weights and `v` at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

/-- The row of the whole arrays that row `p` of the block at point `t` is. -/
def rowOf (t : Fin cfg0.N) (p : Fin 512) : Fin 32768 :=
  ⟨t.val * 512 + p.val, by have := t.isLt; have hN : cfg0.N = 64 := N_0; have := p.isLt; omega⟩

/-- The block of `s` at point `t` is rows `512 t …` of `s`. -/
theorem rows_s (c : Dev nD) (t : Fin cfg0.N) (p : Fin 512) (k : Fin 1024) :
    (iblk m c 0 t : Vec Ideal S512x1024 .f32) (ix2 p k)
      = (m ((c : Thread nD τ).loc main_arg0) : S32768x1024.Idx → Elt Ideal .f32) (ix2 (rowOf t p) k) := by
  obtain ⟨e0, e1, -⟩ := idx_facts t
  unfold iblk
  rw [View.read_apply]
  show V m c main_arg0 _ = _
  refine (congrFun (V_main_arg0 m c) _).trans (congrArg (m ((c : Thread nD τ).loc main_arg0)) (funext fun a => Fin.ext ?_))
  match a with
  | ⟨0, _⟩ =>
    show win0_0.index t (0 : Fin 2) * 512 + 1 * p.val = t.val * 512 + p.val
    rw [e0]; omega
  | ⟨1, _⟩ =>
    show win0_0.index t (1 : Fin 2) * 1024 + 1 * k.val = k.val
    rw [e1]; omega

/-- The block of `h` at point `t` is rows `512 t …` of `h`. -/
theorem rows_h (c : Dev nD) (t : Fin cfg0.N) (p : Fin 512) (k : Fin 1024) :
    (iblk m c 1 t : Vec Ideal S512x1024 .f32) (ix2 p k)
      = (m ((c : Thread nD τ).loc main_arg1) : S32768x1024.Idx → Elt Ideal .f32) (ix2 (rowOf t p) k) := by
  obtain ⟨-, -, e0, e1, -⟩ := idx_facts t
  unfold iblk
  rw [View.read_apply]
  show V m c main_arg1 _ = _
  refine (congrFun (V_main_arg1 m c) _).trans (congrArg (m ((c : Thread nD τ).loc main_arg1)) (funext fun a => Fin.ext ?_))
  match a with
  | ⟨0, _⟩ =>
    show win0_1.index t (0 : Fin 2) * 512 + 1 * p.val = t.val * 512 + p.val
    rw [e0]; omega
  | ⟨1, _⟩ =>
    show win0_1.index t (1 : Fin 2) * 1024 + 1 * k.val = k.val
    rw [e1]; omega

/-- The first weight block at `(k, j)` is `W[j, k]`. -/
theorem weights_first (c : Dev nD) (t : Fin cfg0.N) (k : Fin 1024) (j : Fin 2048) :
    (iblk m c 2 t : Vec Ideal S1024x2048 .bf16) (ix2 k j)
      = (m ((c : Thread nD τ).loc main_arg2) : S2048x2048.Idx → Elt Ideal .f32) (ix2 j (shifted 2048 0 (by omega) k)) := by
  obtain ⟨-, -, -, -, e0, e1, -⟩ := idx_facts t
  unfold iblk
  rw [View.read_apply]
  show V m c main_v3 _ = _
  refine (congrFun (first_half m c) _).trans ?_
  refine (congrArg (halfT 0 slices_S2048x2048_S2048x1024_0_0 (m ((c : Thread nD τ).loc main_arg2)))
    (funext fun a => Fin.ext ?_ : _ = ix2 k j)).trans (halfT_at 0 _ (by omega) _ k j)
  match a with
  | ⟨0, _⟩ =>
    show win0_2.index t (0 : Fin 2) * 1024 + 1 * k.val = k.val
    rw [e0]; omega
  | ⟨1, _⟩ =>
    show win0_2.index t (1 : Fin 2) * 2048 + 1 * j.val = j.val
    rw [e1]; omega

/-- The second weight block at `(k, j)` is `W[j, 1024 + k]`. -/
theorem weights_second (c : Dev nD) (t : Fin cfg0.N) (k : Fin 1024) (j : Fin 2048) :
    (iblk m c 3 t : Vec Ideal S1024x2048 .bf16) (ix2 k j)
      = (m ((c : Thread nD τ).loc main_arg2) : S2048x2048.Idx → Elt Ideal .f32) (ix2 j (shifted 2048 1024 (by omega) k)) := by
  obtain ⟨-, -, -, -, -, -, e0, e1, -⟩ := idx_facts t
  unfold iblk
  rw [View.read_apply]
  show V m c main_v5 _ = _
  refine (congrFun (second_half m c) _).trans ?_
  refine (congrArg (halfT 1024 slices_S2048x2048_S2048x1024_0_1024 (m ((c : Thread nD τ).loc main_arg2)))
    (funext fun a => Fin.ext ?_ : _ = ix2 k j)).trans (halfT_at 1024 _ (by omega) _ k j)
  match a with
  | ⟨0, _⟩ =>
    show win0_3.index t (0 : Fin 2) * 1024 + 1 * k.val = k.val
    rw [e0]; omega
  | ⟨1, _⟩ =>
    show win0_3.index t (1 : Fin 2) * 2048 + 1 * j.val = j.val
    rw [e1]; omega

/-- The block of `v` is `v`. -/
theorem row_v (c : Dev nD) (t : Fin cfg0.N) (j : Fin 2048) :
    (iblk m c 4 t : Vec Ideal S1x2048 .f32) (ix2 (0 : Fin 1) j)
      = (m ((c : Thread nD τ).loc main_arg3) : S1x2048.Idx → Elt Ideal .f32) (ix2 (0 : Fin 1) j) := by
  obtain ⟨-, -, -, -, -, -, -, -, e0, e1, -⟩ := idx_facts t
  unfold iblk
  rw [View.read_apply]
  show V m c main_arg3 _ = _
  refine (congrFun (V_main_arg3 m c) _).trans (congrArg (m ((c : Thread nD τ).loc main_arg3)) (funext fun a => Fin.ext ?_))
  match a with
  | ⟨0, _⟩ =>
    show win0_4.index t (0 : Fin 2) * 1 + 1 * 0 = 0
    rw [e0]
  | ⟨1, _⟩ =>
    show win0_4.index t (1 : Fin 2) * 2048 + 1 * j.val = j.val
    rw [e1]; omega

/-- Row `p` of the block at point `t` sums the terms of the score of row `512 t + p`. -/
theorem block_row (c : Dev nD) (t : Fin cfg0.N) (p : Fin 512) :
    (∑ j : Fin 2048, blockFeature (iblk m c 0 t) (iblk m c 1 t) (iblk m c 2 t) (iblk m c 3 t) (iblk m c 4 t) p j)
      = rowScore (m ((c : Thread nD τ).loc main_arg0)) (m ((c : Thread nD τ).loc main_arg1))
          (m ((c : Thread nD τ).loc main_arg2)) (m ((c : Thread nD τ).loc main_arg3)) (rowOf t p) := by
  unfold rowScore
  refine Finset.sum_congr rfl fun j _ => ?_
  unfold blockFeature feature preact
  rw [row_v m c t j]
  refine congrArg (fun z => Ideal.tanh z * _) ?_
  refine congrArg₂ (· + ·) (Finset.sum_congr rfl fun k _ => ?_) (Finset.sum_congr rfl fun k _ => ?_)
  · rw [rows_s m c t p k, weights_first m c t k j]
  · rw [rows_h m c t p k, weights_second m c t k j]

/-- The scores of all rows of the arguments as launched. -/
abbrev scores (c : Dev nD) : S32768.Idx → Elt Ideal .f32 :=
  scoreVec (m ((c : Thread nD τ).loc main_arg0)) (m ((c : Thread nD τ).loc main_arg1))
    (m ((c : Thread nD τ).loc main_arg2)) (m ((c : Thread nD τ).loc main_arg3))

/-- WHAT POINT `t` WRITES BACK is block `t` of the scores. -/
theorem flushed_eq (c : Dev nD) (t : Fin cfg0.N) :
    (dats m 0 c).flushed 5 t = ((cfg0.win 5).blk t).view.read (Elt Ideal) (scores m c) := by
  show (cfg0.win 5).cut (grid0.coords t) ((dats m 0 c).after 5 t) = _
  rw [after0_5]
  funext y
  have hy : (y 0).val < 512 := (y 0).isLt
  obtain ⟨-, -, -, -, -, -, -, -, -, -, e5⟩ := idx_facts t
  refine (body_at (iblk m c 0 t) (iblk m c 1 t) (iblk m c 2 t) (iblk m c 3 t) (iblk m c 4 t)
    ((cfg0.win 5).xinj (grid0.coords t) y) ⟨(y 0).val, hy⟩ rfl).trans ?_
  rw [block_row m c t ⟨(y 0).val, hy⟩, View.read_apply]
  show rowScore _ _ _ _ _ = rowScore _ _ _ _ _
  refine congrArg _ (Fin.ext ?_)
  show t.val * 512 + (y 0).val = win0_5.index t (0 : Fin 1) * 512 + 1 * (y 0).val
  rw [e5]; omega

/-- An entry of the output is in point `t`'s block iff it is in the block's range. -/
theorem mem_blk (t : Fin cfg0.N) (i : S32768.Idx) :
    i ∈ ((cfg0.win 5).blk t).view.set
      ↔ ∀ a : Fin 1, win0_5.index t a * S512.size a ≤ (i a).val ∧ (i a).val < win0_5.index t a * S512.size a + S512.size a := by
  show i ∈ ((View.whole main_v6).slice (win0_5.rect t)).set ↔ _
  rw [View.set_slice_whole, Rect.mem_set_unit]
  exact Iff.rfl

/-- Every entry of the output is in the block of the point `⌊i / 512⌋`. -/
theorem covered (i : S32768.Idx) : ∃ t : Fin cfg0.N, (cfg0.win 5).flush t = true ∧ i ∈ ((cfg0.win 5).blk t).view.set := by
  have hi : (i 0).val < 32768 := (i 0).isLt
  have hN : cfg0.N = 64 := N_0
  refine ⟨⟨(i 0).val / 512, by rw [hN]; omega⟩, flush0_5 _, ?_⟩
  rw [mem_blk]
  intro a
  obtain ⟨-, -, -, -, -, -, -, -, -, -, e5⟩ := idx_facts ⟨(i 0).val / 512, by rw [hN]; omega⟩
  match a with
  | ⟨0, _⟩ =>
    show win0_5.index _ (0 : Fin 1) * 512 ≤ (i 0).val ∧ (i 0).val < win0_5.index _ (0 : Fin 1) * 512 + 512
    rw [e5]
    show (i 0).val / 512 * 512 ≤ (i 0).val ∧ (i 0).val < (i 0).val / 512 * 512 + 512
    omega

/-- THE OUTPUT VECTOR after the region is the scores. -/
theorem final (c : Dev nD) : (dats m 0 c).arrAt 5 cfg0.N = scores m c :=
  (dats m 0 c).arrAt_eq_of_cover 5 (scores m c) (fun t _ => flushed_eq m c t) covered

end Cert.KernelIdeal.Blocks

end
-- ==== Proof.SoftmaxTail.lean ====
/-
  The softmax along a row of 32768 entries, as both programs compute it: the row's largest entry (started from
  minus infinity) is subtracted from every entry, the exponential is taken, and each exponential is divided by the sum
  of the exponentials (started from zero). It is carried as ONE function of the row: the two programs apply the same
  operations in the same order, so the proof only needs the rows they apply it to to be equal, and never opens it.
-/
import proofs.«167854_j71098888618436_2_alg».proof.Proof.Gen.KernelIdeal
import Idealize.ShloMosaic.PureOps.Ideal

noncomputable section

namespace Cert.KernelIdeal.Tail

open Cert.KernelIdeal Cert.KernelIdeal.Gen Idealize.ShloMosaic

/-- The row's largest entry, spread back over the row. -/
def rowMax (p : FVec Ideal S1x32768 .f32) : FVec Ideal S1x32768 .f32 :=
  broadcastInDim S1x32768 ![0, 1] bcast_S1x1_S1x32768_0_1 (broadcastInDim S1x1 ![0] bcast_S1_S1x1_0
    (maximumf (broadcastInDim S1 ![] bcast_S_S1 (constant (F := Ideal) S_ .f32 0xFF800000#32))
      (Host.reduce FloatOps.maximumf p (constant (F := Ideal) S_ .f32 0xFF800000#32) reducesTo_S1x32768_S1_d1 h_S_)))

/-- The exponential of each entry less the largest. -/
def expShifted (p : FVec Ideal S1x32768 .f32) : FVec Ideal S1x32768 .f32 :=
  Host.exp (subf p (rowMax p))

/-- The softmax of the row. -/
def softmaxRow (p : FVec Ideal S1x32768 .f32) : FVec Ideal S1x32768 .f32 :=
  Host.divf (expShifted p) (broadcastInDim S1x32768 ![0, 1] bcast_S1x1_S1x32768_0_1 (broadcastInDim S1x1 ![0] bcast_S1_S1x1_0
    (Host.reduceAdd (expShifted p) (constant (F := Ideal) S_ .f32 0x00000000#32) reducesTo_S1x32768_S1_d1 h_S_)))

end Cert.KernelIdeal.Tail

end
-- ==== Proof.KernelRun.lean ====
/-
  The kernel's program, run: its result is the softmax of the row of scores, and its arguments end unchanged.

  After the region the program recasts the output vector of 32768 scores as the one row of a 1 × 32768 array and
  takes the softmax along that row. The vector recast as a row holds at position `r` the vector's entry `r`, the
  score of row `r`.
-/
import proofs.«167854_j71098888618436_2_alg».proof.Proof.KernelBlocks
import proofs.«167854_j71098888618436_2_alg».proof.Proof.SoftmaxTail
import Idealize.ShloMosaic.Lib.StableHlo.Run
import Idealize.ShloMosaic.Lib.ValueLayout

noncomputable section

namespace Cert.KernelIdeal.Run

open Cert.KernelIdeal Cert.KernelIdeal.Gen Cert.KernelIdeal.Blocks Cert.KernelIdeal.Tail
open Idealize.ShloMosaic Idealize.ShloMosaic.TcCoe Idealize.SL.Sem Idealize.ShloMosaic.StableHlo
open Idealize.ShloMosaic.ValueIdx Cert.AttnScore
open Idealize.ShloMosaic.Pipeline (Dat)

variable (m : (ℓ : Loc nD τ sig) → Buf (Elt Ideal) ℓ) (ρ : Dev nD → PrngReg)

/-- The vector of scores recast as a row is the row of scores. -/
theorem scores_as_row (c : Dev nD) :
    shapeCast S1x32768 (scores m c) shapeCasts_S32768_S1x32768
      = scoreRow (m ((c : Thread nD τ).loc main_arg0)) (m ((c : Thread nD τ).loc main_arg1))
          (m ((c : Thread nD τ).loc main_arg2)) (m ((c : Thread nD τ).loc main_arg3)) := by
  funext i
  obtain ⟨u, r, rfl⟩ : ∃ (u : Fin 1) (r : Fin 32768), i = ix2 u r := ⟨i 0, i 1, eq_ix2 i⟩
  rw [shapeCast_a_1a_apply]
  rfl

/-- The program's result: the softmax of the row of scores of the arguments as launched. -/
def result (c : Dev nD) : Buf (Elt Ideal) ((c.tc : Thread nD τ).loc main_v18) :=
  softmaxRow (scoreRow (m ((c : Thread nD τ).loc main_arg0)) (m ((c : Thread nD τ).loc main_arg1))
    (m ((c : Thread nD τ).loc main_arg2)) (m ((c : Thread nD τ).loc main_arg3)))

/-- What the operations after the region leave in the result buffer. -/
theorem tail_result (c : Dev nD) :
    Pipeline.afterTail₀ cfgs (dats m) 0 (V0 m) [hostOps1] c main_v18 = result m c := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v6)
      = scores m c :=
    (Pipeline.withArrays_arr spec0 launch0.win.arr_inj c _ _ 5).trans (final m c)
  unfold result
  rw [hw, ← scores_as_row m c]
  rfl

/-- THE RUN: every weakly fair execution terminates with the result buffer at the softmax of the row of scores and
    the four arguments as launched. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v18 (Pipeline.mem_restRefs_of main_v18 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c)))⟩)
    (run_main m ρ)

end Cert.KernelIdeal.Run

end
-- ==== Proof.RefScore.lean ====
/-
  The reference's array before its softmax is the row scores.

  The reference joins `s` and `h` side by side, multiplies the 2048-wide rows by the transpose of `W`, applies the
  hyperbolic tangent, multiplies by the transpose of `v` and transposes the resulting column into a row. Read at
  position `r` of that row: the sum over the 2048 features of `tanh` of the joined row against row `j` of `W`, times
  `v[0, j]`. The joined row's first 1024 entries are the row of `s` and its last 1024 the row of `h`, so the sum over
  its 2048 entries splits into the two sums of the pre-activation.
-/
import proofs.«167854_j71098888618436_2_alg».proof.Proof.Gen.ReferenceIdeal.Read
import proofs.«167854_j71098888618436_2_alg».proof.Proof.ScoreSpec

noncomputable section

namespace Cert.ReferenceIdeal.RefScore

open Cert.ReferenceIdeal Cert.ReferenceIdeal.Gen Cert.ReferenceIdeal.Read
open Idealize.ShloMosaic Idealize.ShloMosaic.ValueIdx Cert.AttnScore

variable (x0 x1 : (⟨S32768x1024, .f32⟩ : BufTy).Contents (Elt Ideal)) (x2 : (⟨S2048x2048, .f32⟩ : BufTy).Contents (Elt Ideal))
  (x3 : (⟨S1x2048, .f32⟩ : BufTy).Contents (Elt Ideal))

/-- The first 1024 entries of a joined row are the row of the first array. -/
theorem joined_first (r : Fin 32768) (k : Fin 1024) :
    val_main_v0 (F := Ideal) x0 x1 (ix2 r (shifted 2048 0 (by omega) k)) = x0 (ix2 r k) := by
  unfold val_main_v0
  refine concatenate_pair_apply_left (1 : Fin 2) x0 x1 _ (ix2 r (shifted 2048 0 (by omega) k)) rfl (ix2 r k) fun b => ?_
  match b with
  | ⟨0, _⟩ => rfl
  | ⟨1, _⟩ =>
    show k.val = 0 + k.val
    omega

/-- The last 1024 entries of a joined row are the row of the second array. -/
theorem joined_second (r : Fin 32768) (k : Fin 1024) :
    val_main_v0 (F := Ideal) x0 x1 (ix2 r (shifted 2048 1024 (by omega) k)) = x1 (ix2 r k) := by
  unfold val_main_v0
  refine concatenate_pair_apply_right (1 : Fin 2) x0 x1 _ (ix2 r (shifted 2048 1024 (by omega) k)) rfl rfl (ix2 r k)
    (fun b hb => ?_) ?_
  · match b with
    | ⟨0, _⟩ => rfl
    | ⟨1, _⟩ => exact absurd rfl hb
  · show k.val + 1024 = 1024 + k.val
    omega

/-- One factor pair of the first product: the joined row's entry `k` against row `j` of `W` at column `k`. -/
theorem factors (r : Fin 32768) (j k : Fin 2048) :
    val_main_v0 (F := Ideal) x0 x1 (lidx_main_v2 (ix2 r j) k) * val_main_v1 (F := Ideal) x2 (ridx_main_v2 (ix2 r j) k)
      = val_main_v0 (F := Ideal) x0 x1 (ix2 r k) * x2 (ix2 j k) := by
  have el : lidx_main_v2 (ix2 r j) k = ix2 r k :=
    funext fun a => Fin.ext (by match a with | ⟨0, _⟩ => rfl | ⟨1, _⟩ => rfl)
  have er : idx_main_v1 (ridx_main_v2 (ix2 r j) k) = ix2 j k :=
    funext fun a => Fin.ext (by match a with | ⟨0, _⟩ => rfl | ⟨1, _⟩ => rfl)
  rw [el, val_main_v1_apply, er]

/-- The reference's first product at `(r, j)` is the pre-activation of feature `j` in row `r`. -/
theorem preact_ref (r : Fin 32768) (j : Fin 2048) :
    val_main_v2 (F := Ideal) x0 x1 x2 (ix2 r j) = preact x0 x1 x2 r j := by
  rw [val_main_v2_apply]
  refine (Finset.sum_congr rfl fun k _ => factors x0 x1 x2 r j k).trans ?_
  refine (sum_halves _).trans ?_
  unfold preact
  refine congrArg₂ (· + ·) (Finset.sum_congr rfl fun k _ => ?_) (Finset.sum_congr rfl fun k _ => ?_)
  · rw [joined_first]
  · rw [joined_second]

/-- The reference's row before the softmax, at position `r`, is the score of row `r`. -/
theorem score_ref (r : Fin 32768) :
    val_main_v6 (F := Ideal) x0 x1 x2 x3 (ix2 (0 : Fin 1) r) = rowScore x0 x1 x2 x3 r := by
  have e6 : idx_main_v6 (ix2 (0 : Fin 1) r) = ix2 r (0 : Fin 1) :=
    funext fun a => Fin.ext (by match a with | ⟨0, _⟩ => rfl | ⟨1, _⟩ => rfl)
  rw [val_main_v6_apply, e6, val_main_v5_apply]
  unfold rowScore
  refine Finset.sum_congr rfl fun j _ => ?_
  have el : lidx_main_v5 (ix2 r (0 : Fin 1)) j = ix2 r j :=
    funext fun a => Fin.ext (by match a with | ⟨0, _⟩ => rfl | ⟨1, _⟩ => rfl)
  have er : idx_main_v4 (ridx_main_v5 (ix2 r (0 : Fin 1)) j) = ix2 (0 : Fin 1) j :=
    funext fun a => Fin.ext (by match a with | ⟨0, _⟩ => rfl | ⟨1, _⟩ => rfl)
  rw [el, val_main_v3_apply, val_main_v4_apply, er, preact_ref]
  rfl

end Cert.ReferenceIdeal.RefScore

end
-- ==== Proof.RefResult.lean ====
/-
  The reference's result is the softmax of the row of scores.

  Its row before the softmax holds, at position `r`, the score of row `r`; the operations after it are the softmax
  along the row, the same operations in the same order as the kernel's program applies after its region.
-/
import proofs.«167854_j71098888618436_2_alg».proof.Proof.RefScore
import proofs.«167854_j71098888618436_2_alg».proof.Proof.SoftmaxTail

noncomputable section

namespace Cert.ReferenceIdeal.RefResult

open Cert.ReferenceIdeal Cert.ReferenceIdeal.Gen Cert.ReferenceIdeal.Read Cert.ReferenceIdeal.RefScore
open Idealize.ShloMosaic Idealize.ShloMosaic.ValueIdx Cert.AttnScore

variable (x0 x1 : (⟨S32768x1024, .f32⟩ : BufTy).Contents (Elt Ideal)) (x2 : (⟨S2048x2048, .f32⟩ : BufTy).Contents (Elt Ideal))
  (x3 : (⟨S1x2048, .f32⟩ : BufTy).Contents (Elt Ideal))

/-- The reference's row before the softmax is the row of scores. -/
theorem scores_ref : val_main_v6 (F := Ideal) x0 x1 x2 x3 = scoreRow x0 x1 x2 x3 := by
  funext i
  obtain ⟨u, r, rfl⟩ : ∃ (u : Fin 1) (r : Fin 32768), i = ix2 u r := ⟨i 0, i 1, eq_ix2 i⟩
  obtain rfl : u = 0 := Subsingleton.elim _ _
  exact score_ref x0 x1 x2 x3 r

/-- The reference's result is the softmax of the row of scores. -/
theorem result_ref :
    val_main_v17 (F := Ideal) x0 x1 x2 x3 = Cert.KernelIdeal.Tail.softmaxRow (scoreRow x0 x1 x2 x3) := by
  rw [← scores_ref]
  rfl

end Cert.ReferenceIdeal.RefResult

end
-- ==== Proof.lean ====
/-
  Additive attention scores, then a softmax over the 32768 rows: the kernel against its reference, on the extended reals.

  Both programs compute, for every row `r`, the score `Σⱼ tanh (Σₖ x[r, k] · W[j, k]) · v[0, j]` where `x` is `s` and `h`
  side by side, and then the softmax of the 32768 scores. The reference does it in one pass over the joined rows. The
  kernel never joins them: it multiplies the rows of `s` by the first 1024 columns of `W` (transposed) and the rows of
  `h` by the last 1024, adds the two products, and works through the 2048 features in four chunks of 512, adding each
  chunk's sum onto a running total that starts at zero; it does so 512 rows at a time over a grid of 64 points. Splitting
  the sum over the 2048 joined columns in two, and the sum over the 2048 features in four, regroups finite sums in a
  commutative monoid, so the two scores are equal whatever the entries are: no entry is asked to be finite. The format
  changes in front of the matrix unit are the identity on the extended reals, and the two hyperbolic tangents are one
  function there. The softmax is the same chain of operations in both programs and is never opened.

  The three frames: the kernel's and the idealized kernel's are their generated frame runs; the reference has no kernel,
  and its frame is its run with the result dropped. The idealization rewrote nothing, so there is nothing to preserve.
-/
import proofs.«167854_j71098888618436_2_alg».proof.Defs
import proofs.«167854_j71098888618436_2_alg».proof.Proof.Gen.Kernel
import proofs.«167854_j71098888618436_2_alg».proof.Proof.Gen.Kernel.Skeleton
import proofs.«167854_j71098888618436_2_alg».proof.Proof.Gen.Kernel.Launch
import proofs.«167854_j71098888618436_2_alg».proof.Proof.Gen.Kernel.Points
import proofs.«167854_j71098888618436_2_alg».proof.Proof.Gen.Kernel.Frame
import proofs.«167854_j71098888618436_2_alg».proof.Proof.Gen.KernelIdeal
import proofs.«167854_j71098888618436_2_alg».proof.Proof.Gen.KernelIdeal.Skeleton
import proofs.«167854_j71098888618436_2_alg».proof.Proof.Gen.KernelIdeal.Launch
import proofs.«167854_j71098888618436_2_alg».proof.Proof.Gen.KernelIdeal.Points
import proofs.«167854_j71098888618436_2_alg».proof.Proof.Gen.KernelIdeal.Frame
import proofs.«167854_j71098888618436_2_alg».proof.Proof.Gen.ReferenceIdeal
import proofs.«167854_j71098888618436_2_alg».proof.Proof.Gen.Pre_finite_inputs
import proofs.«167854_j71098888618436_2_alg».proof.Proof.Gen.ReferenceIdeal.Run
import proofs.«167854_j71098888618436_2_alg».proof.Proof.Gen.ReferenceIdeal.Read
import proofs.«167854_j71098888618436_2_alg».proof.Proof.KernelRun
import proofs.«167854_j71098888618436_2_alg».proof.Proof.RefResult
import Idealize.ShloMosaic.Adequacy
import Idealize.ShloMosaic.Init

noncomputable section

namespace Cert.Proof

open Idealize.ShloMosaic Idealize.SL.Sem

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end at the softmax of the row of scores. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefResult.result_ref,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_reference, trivial, algebraic⟩

end Cert.Proof

end
